-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x128 : Shape := ⟨4, ![32, 128, 128, 128]⟩
abbrev S32x128 : Shape := ⟨2, ![32, 128]⟩
abbrev S32 : Shape := ⟨1, ![32]⟩
abbrev S_ : Shape := ⟨0, ![]⟩

class Facts : Prop where
  bcast_S_S32x128x128x128 : S_.BroadcastsInDim S32x128x128x128 (![] : Fin 0 → Fin S32x128x128x128.rank)
  reducesTo_S32x128x128x128_S_d0_1_2_3 : S32x128x128x128.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x128x128x128 .f32) (main_arg1 : FVec F S32x128 .f32) (main_arg2 : FVec F S32 .f32) : IVec S_ 1 :=
  let main_v0 : FVec F S32x128x128x128 .f32 := Host.absf main_arg0
  let main_cst : FVec F S_ .f32 := constant S_ .f32 0x7F800000#32
  let main_v1 : FVec F S32x128x128x128 .f32 := broadcastInDim S32x128x128x128 ![] bcast_S_S32x128x128x128 main_cst
  let main_v2 : IVec S32x128x128x128 1 := cmpf .olt main_v0 main_v1
  let main_c : IVec S_ 1 := constantI S_ 1 1#1
  let main_v3 : IVec S_ 1 := (fun x v => Host.reduce IntOp.andi x v reducesTo_S32x128x128x128_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x128x128x128 : Shape := ⟨4, ![32, 128, 128, 128]⟩
abbrev S32x128 : Shape := ⟨2, ![32, 128]⟩
abbrev S32 : Shape := ⟨1, ![32]⟩
abbrev S32x128x16384 : Shape := ⟨3, ![32, 128, 16384]⟩
abbrev S32x1 : Shape := ⟨2, ![32, 1]⟩
abbrev S32x32x128 : Shape := ⟨3, ![32, 32, 128]⟩
abbrev S1x128x16384 : Shape := ⟨3, ![1, 128, 16384]⟩
abbrev S1x32x128 : Shape := ⟨3, ![1, 32, 128]⟩
abbrev S128x16384 : Shape := ⟨2, ![128, 16384]⟩
abbrev S16384 : Shape := ⟨1, ![16384]⟩
abbrev S1x16384 : Shape := ⟨2, ![1, 16384]⟩
abbrev S32x16384 : Shape := ⟨2, ![32, 16384]⟩
abbrev S32x4096 : Shape := ⟨2, ![32, 4096]⟩

abbrev nBuf : Space → Nat
  | .hbm => 7
  | .vmem => 6
  | .smem => 0
  | _ => 0

abbrev bufTy : (tb : Table) → Fin (tcTables nBuf tb) → BufTy
  | .hbm, ⟨0, _⟩ => ⟨S32x128x128x128, .f32⟩
  | .hbm, ⟨1, _⟩ => ⟨S32x128, .f32⟩
  | .hbm, ⟨2, _⟩ => ⟨S32, .f32⟩
  | .hbm, ⟨3, _⟩ => ⟨S32x128x16384, .f32⟩
  | .hbm, ⟨4, _⟩ => ⟨S32x1, .f32⟩
  | .hbm, ⟨5, _⟩ => ⟨S32x32x128, .f32⟩
  | .hbm, ⟨6, _⟩ => ⟨S32x4096, .f32⟩
  | .local _ .vmem, ⟨0, _⟩ => ⟨S1x128x16384, .f32⟩
  | .local _ .vmem, ⟨1, _⟩ => ⟨S1x128x16384, .f32⟩
  | .local _ .vmem, ⟨2, _⟩ => ⟨S32x128, .f32⟩
  | .local _ .vmem, ⟨3, _⟩ => ⟨S32x1, .f32⟩
  | .local _ .vmem, ⟨4, _⟩ => ⟨S1x32x128, .f32⟩
  | .local _ .vmem, ⟨5, _⟩ => ⟨S1x32x128, .f32⟩
  | _, _ => ⟨S32x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x128x128x128_S32x128x16384 : S32x128x128x128.ShapeCasts S32x128x16384
  shapeCasts_S32_S32x1 : S32.ShapeCasts S32x1
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  reduces_S128x16384_S16384 : S128x16384.Reduces [0] S16384
  shapeCasts_S16384_S1x16384 : S16384.ShapeCasts S1x16384
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x128_S32 : S32x128.Reduces [1] S32
  broadcasts_S32x1_S32x128 : S32x1.Broadcasts S32x128
  broadcasts_S32x1_S32x16384 : S32x1.Broadcasts S32x16384
  broadcasts_S1x16384_S32x16384 : S1x16384.Broadcasts S32x16384
  reduces_S32x16384_S16384 : S32x16384.Reduces [0] S16384
  reduces_S32x16384_S32 : S32x16384.Reduces [1] S32
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  shapeCasts_S32x32x128_S32x4096 : S32x32x128.ShapeCasts S32x4096
  dot_S32x128_S128x16384_S32x16384_1_0_0_1_n_n_wf : DotDims.WF S32x128 S128x16384 S32x16384 [1] [0] [0] [1] [] []
  dot_S32x16384_S128x16384_S32x128_1_1_0_0_n_n_wf : DotDims.WF S32x16384 S128x16384 S32x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16384.size a ≤ S32x128x16384.size a
  hwx0_0 : ∀ i : grid0.Coords, EltTy.bits .f32 = 32 ∨ (Rect.block (s := S32x128x16384) S1x128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S32x32x128.size a
  hwx0_3 : ∀ i : grid0.Coords, EltTy.bits .f32 = 32 ∨ (Rect.block (s := S32x32x128) S1x32x128.size (cc0_transform_3 i) (hinb0_3 i)).WholeWords (EltTy.packing .f32)

variable [Facts₀]

def dot_S32x128_S128x16384_S32x16384_1_0_0_1_n_n : DotDims S32x128 S128x16384 S32x16384 where
  lhsContracting := [1]
  rhsContracting := [0]
  lhsNonContracting := [0]
  rhsNonContracting := [1]
  lhsBatch := []
  rhsBatch := []
  wf := dot_S32x128_S128x16384_S32x16384_1_0_0_1_n_n_wf
def dot_S32x16384_S128x16384_S32x128_1_1_0_0_n_n : DotDims S32x16384 S128x16384 S32x128 where
  lhsContracting := [1]
  rhsContracting := [1]
  lhsNonContracting := [0]
  rhsNonContracting := [0]
  lhsBatch := []
  rhsBatch := []
  wf := dot_S32x16384_S128x16384_S32x128_1_1_0_0_n_n_wf

abbrev win0_0 : Pipeline.Window sig grid0 :=
  Pipeline.Window.ofSpec (Memref.whole main_v0) S1x128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x128x128 : Shape := ⟨4, ![32, 128, 128, 128]⟩
abbrev S32x128 : Shape := ⟨2, ![32, 128]⟩
abbrev S32 : Shape := ⟨1, ![32]⟩
abbrev S32x128x16384 : Shape := ⟨3, ![32, 128, 16384]⟩
abbrev S32x16384x128 : Shape := ⟨3, ![32, 16384, 128]⟩
abbrev S_ : Shape := ⟨0, ![]⟩
abbrev S32x16384 : Shape := ⟨2, ![32, 16384]⟩
abbrev S32x16384x32 : Shape := ⟨3, ![32, 16384, 32]⟩
abbrev S32x16384x1 : Shape := ⟨3, ![32, 16384, 1]⟩
abbrev S1x1x32 : Shape := ⟨3, ![1, 1, 32]⟩
abbrev S32x32x128 : Shape := ⟨3, ![32, 32, 128]⟩
abbrev S32x32 : Shape := ⟨2, ![32, 32]⟩
abbrev S32x32x1 : Shape := ⟨3, ![32, 32, 1]⟩
abbrev S1x32x128 : Shape := ⟨3, ![1, 32, 128]⟩
abbrev S32x4096 : Shape := ⟨2, ![32, 4096]⟩

abbrev nBuf : Space → Nat
  | .hbm => 49
  | .vmem => 0
  | .smem => 0
  | _ => 0

abbrev bufTy : (tb : Table) → Fin (tcTables nBuf tb) → BufTy
  | .hbm, ⟨0, _⟩ => ⟨S32x128x128x128, .f32⟩
  | .hbm, ⟨1, _⟩ => ⟨S32x128, .f32⟩
  | .hbm, ⟨2, _⟩ => ⟨S32, .f32⟩
  | .hbm, ⟨3, _⟩ => ⟨S32x128x16384, .f32⟩
  | .hbm, ⟨4, _⟩ => ⟨S32x16384x128, .f32⟩
  | .hbm, ⟨5, _⟩ => ⟨S32x16384x128, .f32⟩
  | .hbm, ⟨6, _⟩ => ⟨S_, .f32⟩
  | .hbm, ⟨7, _⟩ => ⟨S32x16384, .f32⟩
  | .hbm, ⟨8, _⟩ => ⟨S32x128, .f32⟩
  | .hbm, ⟨9, _⟩ => ⟨S_, .f32⟩
  | .hbm, ⟨10, _⟩ => ⟨S32, .f32⟩
  | .hbm, ⟨11, _⟩ => ⟨S32x16384x32, .f32⟩
  | .hbm, ⟨12, _⟩ => ⟨S32x16384x1, .f32⟩
  | .hbm, ⟨13, _⟩ => ⟨S_, .f32⟩
  | .hbm, ⟨14, _⟩ => ⟨S32x16384x32, .f32⟩
  | .hbm, ⟨15, _⟩ => ⟨S32x16384x32, .f32⟩
  | .hbm, ⟨16, _⟩ => ⟨S32x16384x32, .f32⟩
  | .hbm, ⟨17, _⟩ => ⟨S32x16384x32, .f32⟩
  | .hbm, ⟨18, _⟩ => ⟨S1x1x32, .f32⟩
  | .hbm, ⟨19, _⟩ => ⟨S32x16384x32, .f32⟩
  | .hbm, ⟨20, _⟩ => ⟨S32x16384x32, .f32⟩
  | .hbm, ⟨21, _⟩ => ⟨S1x1x32, .f32⟩
  | .hbm, ⟨22, _⟩ => ⟨S1x1x32, .f32⟩
  | .hbm, ⟨23, _⟩ => ⟨S32x16384x32, .f32⟩
  | .hbm, ⟨24, _⟩ => ⟨S32x16384x32, .f32⟩
  | .hbm, ⟨25, _⟩ => ⟨S_, .f32⟩
  | .hbm, ⟨26, _⟩ => ⟨S32x16384, .f32⟩
  | .hbm, ⟨27, _⟩ => ⟨S_, .f32⟩
  | .hbm, ⟨28, _⟩ => ⟨S32x16384, .f32⟩
  | .hbm, ⟨29, _⟩ => ⟨S32x16384, .f32⟩
  | .hbm, ⟨30, _⟩ => ⟨S32x16384x1, .f32⟩
  | .hbm, ⟨31, _⟩ => ⟨S32x16384x32, .f32⟩
  | .hbm, ⟨32, _⟩ => ⟨S32x16384x32, .f32⟩
  | .hbm, ⟨33, _⟩ => ⟨S32x16384x32, .f32⟩
  | .hbm, ⟨34, _⟩ => ⟨S_, .f32⟩
  | .hbm, ⟨35, _⟩ => ⟨S32x16384, .f32⟩
  | .hbm, ⟨36, _⟩ => ⟨S32x16384x1, .f32⟩
  | .hbm, ⟨37, _⟩ => ⟨S32x16384x32, .f32⟩
  | .hbm, ⟨38, _⟩ => ⟨S32x16384x32, .f32⟩
  | .hbm, ⟨39, _⟩ => ⟨S32x32x128, .f32⟩
  | .hbm, ⟨40, _⟩ => ⟨S_, .f32⟩
  | .hbm, ⟨41, _⟩ => ⟨S32x32, .f32⟩
  | .hbm, ⟨42, _⟩ => ⟨S32x32x1, .f32⟩
  | .hbm, ⟨43, _⟩ => ⟨S1x32x128, .f32⟩
  | .hbm, ⟨44, _⟩ => ⟨S32x32x128, .f32⟩
  | .hbm, ⟨45, _⟩ => ⟨S32x32x128, .f32⟩
  | .hbm, ⟨46, _⟩ => ⟨S32x32x128, .f32⟩
  | .hbm, ⟨47, _⟩ => ⟨S32x32x128, .f32⟩
  | .hbm, ⟨48, _⟩ => ⟨S32x4096, .f32⟩
  | _, _ => ⟨S32x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]

class Facts₀ : Prop where
  shapeCasts_S32x128x128x128_S32x128x16384 : S32x128x128x128.ShapeCasts S32x128x16384
  transposes_S32x128x16384_S32x16384x128_0_2_1 : S32x128x16384.Transposes [0, 2, 1] S32x16384x128
  reducesTo_S32x16384x128_S32x16384_d2 : S32x16384x128.ReducesTo [2] S32x16384
  h_S_ : 0 < S_.numel
  reducesTo_S32x128_S32_d1 : S32x128.ReducesTo [1] S32
  bcast_S32x16384_S32x16384x1_0_1 : S32x16384.BroadcastsInDim S32x16384x1 (![0, 1] : Fin 2 → Fin S32x16384x1.rank)
  bcast_S_S32x16384x32 : S_.BroadcastsInDim S32x16384x32 (![] : Fin 0 → Fin S32x16384x32.rank)
  bcast_S32x16384x1_S32x16384x32_0_1_2 : S32x16384x1.BroadcastsInDim S32x16384x32 (![0, 1, 2] : Fin 3 → Fin S32x16384x32.rank)
  bcast_S32_S1x1x32_2 : S32.BroadcastsInDim S1x1x32 (![2] : Fin 1 → Fin S1x1x32.rank)
  bcast_S1x1x32_S32x16384x32_0_1_2 : S1x1x32.BroadcastsInDim S32x16384x32 (![0, 1, 2] : Fin 3 → Fin S32x16384x32.rank)
  reducesTo_S32x16384x32_S32x16384_d2 : S32x16384x32.ReducesTo [2] S32x16384
  bcast_S_S32x16384 : S_.BroadcastsInDim S32x16384 (![] : Fin 0 → Fin S32x16384.rank)
  reducesTo_S32x16384x32_S32x32_d1 : S32x16384x32.ReducesTo [1] S32x32
  bcast_S32x32_S32x32x1_0_1 : S32x32.BroadcastsInDim S32x32x1 (![0, 1] : Fin 2 → Fin S32x32x1.rank)
  bcast_S32x128_S1x32x128_1_2 : S32x128.BroadcastsInDim S1x32x128 (![1, 2] : Fin 2 → Fin S1x32x128.rank)
  bcast_S32x32x1_S32x32x128_0_1_2 : S32x32x1.BroadcastsInDim S32x32x128 (![0, 1, 2] : Fin 3 → Fin S32x32x128.rank)
  bcast_S1x32x128_S32x32x128_0_1_2 : S1x32x128.BroadcastsInDim S32x32x128 (![0, 1, 2] : Fin 3 → Fin S32x32x128.rank)
  shapeCasts_S32x32x128_S32x4096 : S32x32x128.ShapeCasts S32x4096
  dot_S32x16384x128_S32x128_S32x16384x32_2_1_01_0_n_n_wf : DotDims.WF S32x16384x128 S32x128 S32x16384x32 [2] [1] [0, 1] [0] [] []
  dot_S32x16384x32_S32x16384x128_S32x32x128_1_1_2_2_0_0_wf : DotDims.WF S32x16384x32 S32x16384x128 S32x32x128 [1] [1] [2] [2] [0] [0]

variable [Facts₀]

def dot_S32x16384x128_S32x128_S32x16384x32_2_1_01_0_n_n : DotDims S32x16384x128 S32x128 S32x16384x32 where
  lhsContracting := [2]
  rhsContracting := [1]
  lhsNonContracting := [0, 1]
  rhsNonContracting := [0]
  lhsBatch := []
  rhsBatch := []
  wf := dot_S32x16384x128_S32x128_S32x16384x32_2_1_01_0_n_n_wf
def dot_S32x16384x32_S32x16384x128_S32x32x128_1_1_2_2_0_0 : DotDims S32x16384x32 S32x16384x128 S32x32x128 where
  lhsContracting := [1]
  rhsContracting := [1]
  lhsNonContracting := [2]
  rhsNonContracting := [2]
  lhsBatch := [0]
  rhsBatch := [0]
  wf := dot_S32x16384x32_S32x16384x128_S32x32x128_1_1_2_2_0_0_wf

class Facts : Prop extends Facts₀ where

variable [Facts]
-- ==== Proof.Spec.lean ====
/-
  The encoding layer's result as ONE function of the argument arrays, over the extended reals.

  For one batch entry, with x : 128 × 16384 (features × positions), codewords cw : 32 × 128 and
  scales sc : 32:
    sqNorm n   = Σ_d x[d,n]²                    cwSq k = Σ_d cw[k,d]²
    logit k n  = (−sc k) · ((sqNorm n − 2 · Σ_d x[d,n]·cw[k,d]) + cwSq k)       (scaled squared distance)
    weight k n = exp (logit k n − max_k' logit k' n) / Σ_k' exp (logit k' n − max …)   (softmax over k)
    enc k d    = Σ_n weight k n · x[d,n] − (Σ_n weight k n) · cw[k,d]           (aggregated residuals)
  Two spellings of the logits and of the weights are stated: the distributed one (the scale multiplied
  into each of the three terms, and the quotient written as a product with a reciprocal) and the
  factored one. They agree when every entry of the arguments is a real number (Algebra.lean).
-/
import Idealize.ShloMosaic.PureOps.Ideal
import Idealize.ShloMosaic.Lib.ValueIdx

noncomputable section

open scoped BigOperators

namespace Cert.Encoding

open Idealize.ShloMosaic Idealize.ShloMosaic.ValueIdx

/-- The float literals 2, 1 and −∞, kept as their patterns: the same word on both sides is never evaluated. -/
abbrev two : EReal := Ideal.ofBits .f32 0x40000000#32
abbrev one : EReal := Ideal.ofBits .f32 0x3F800000#32
abbrev negInf : EReal := Ideal.ofBits .f32 0xFF800000#32

section Logits
variable (x : Fin 128 → Fin 16384 → EReal) (cw : Fin 32 → Fin 128 → EReal) (sc : Fin 32 → EReal)

/-- The squared norm of the feature vector at position `n`. -/
def sqNorm (n : Fin 16384) : EReal := ∑ d : Fin 128, x d n * x d n
/-- The squared norm of codeword `k`. -/
def cwSq (k : Fin 32) : EReal := ∑ d : Fin 128, cw k d * cw k d
/-- The logits, factored: minus the scale times the squared distance ‖x_n‖² − 2⟨x_n, c_k⟩ + ‖c_k‖². -/
def logit (k : Fin 32) (n : Fin 16384) : EReal :=
  (-(sc k)) * ((sqNorm x n - two * ∑ d : Fin 128, x d n * cw k d) + cwSq cw k)
/-- The logits, distributed: the negated scale `0 − sc k` multiplied into each term, and into the codeword
    before the inner product. -/
def logitK (k : Fin 32) (n : Fin 16384) : EReal :=
  ((0 - sc k) * sqNorm x n - two * ∑ d : Fin 128, ((0 - sc k) * cw k d) * x d n) + (0 - sc k) * cwSq cw k
end Logits

section Softmax
variable (L : Fin 32 → Fin 16384 → EReal)
/-- The largest logit at position `n`, as the fold of `max` from −∞ over the 32 codewords. -/
def colMax (n : Fin 16384) : EReal := (Finset.univ : Finset (Fin 32)).fold max negInf (fun k => L k n)
/-- The shifted exponential. -/
def expo (k : Fin 32) (n : Fin 16384) : EReal := Ideal.exp (L k n - colMax L n)
/-- The softmax weight as a quotient. -/
def weight (k : Fin 32) (n : Fin 16384) : EReal := Ideal.div (expo L k n) (∑ k' : Fin 32, expo L k' n)
/-- The softmax weight as a product with the reciprocal of the denominator. -/
def weightK (k : Fin 32) (n : Fin 16384) : EReal := expo L k n * Ideal.div one (∑ k' : Fin 32, expo L k' n)
end Softmax

/-- The aggregated residuals for assignment weights `A`. -/
def enc (x : Fin 128 → Fin 16384 → EReal) (cw : Fin 32 → Fin 128 → EReal) (A : Fin 32 → Fin 16384 → EReal)
    (k : Fin 32) (d : Fin 128) : EReal :=
  (∑ n : Fin 16384, A k n * x d n) - (∑ n : Fin 16384, A k n) * cw k d

/-- Batch entry `b` of the input viewed as [32, 128, 16384]. -/
def slab (xr : (⟨3, ![32, 128, 16384]⟩ : Shape).Idx → EReal) (b : Fin 32) : Fin 128 → Fin 16384 → EReal :=
  fun d n => xr (ix3 b d n)
/-- The codewords and scales by coordinates. -/
def cwOf (c : (⟨2, ![32, 128]⟩ : Shape).Idx → EReal) : Fin 32 → Fin 128 → EReal := fun k d => c (ix2 k d)
def scOf (s : (⟨1, ![32]⟩ : Shape).Idx → EReal) : Fin 32 → EReal := fun k => s (ix1 k)

/-- THE RESULT before the final reshape, [32, 32, 128], factored spelling. -/
def result (xr : (⟨3, ![32, 128, 16384]⟩ : Shape).Idx → EReal) (c : (⟨2, ![32, 128]⟩ : Shape).Idx → EReal)
    (s : (⟨1, ![32]⟩ : Shape).Idx → EReal) : (⟨3, ![32, 32, 128]⟩ : Shape).Idx → EReal :=
  fun i => enc (slab xr (i 0)) (cwOf c) (weight (logit (slab xr (i 0)) (cwOf c) (scOf s))) (i 1) (i 2)

/-- The same, distributed spelling. -/
def resultK (xr : (⟨3, ![32, 128, 16384]⟩ : Shape).Idx → EReal) (c : (⟨2, ![32, 128]⟩ : Shape).Idx → EReal)
    (s : (⟨1, ![32]⟩ : Shape).Idx → EReal) : (⟨3, ![32, 32, 128]⟩ : Shape).Idx → EReal :=
  fun i => enc (slab xr (i 0)) (cwOf c) (weightK (logitK (slab xr (i 0)) (cwOf c) (scOf s))) (i 1) (i 2)

end Cert.Encoding

end
-- ==== Proof.Algebra.lean ====
/-
  The two spellings of the encoding layer's result agree on real arguments.

  When every entry of the input, the codewords and the scales is a real number, every intermediate
  quantity up to the logits is a real number, so the scale distributes over the three terms of the
  squared distance; the column maximum of real logits is real, each shifted exponential is a positive
  real, the softmax denominator is a positive real, and a quotient by a nonzero real is the product
  with its reciprocal.
-/
import proofs.«141829_j63986422776020_2_alg».proof.Proof.Spec

noncomputable section

open scoped BigOperators

namespace Cert.Encoding

open Idealize.ShloMosaic Idealize.ShloMosaic.ValueIdx

/-! ### The three float literals -/

/-- The pattern of the float 2 is the real number 2. -/
theorem two_eq : two = ((2 : ℝ) : EReal) := by
  simp [two, Ideal.ofBits, Ideal.ieee, -EReal.coe_mul]; norm_num

/-- The pattern of the float 1 is the extended real 1. -/
theorem one_eq : one = 1 := by
  rw [show (1 : EReal) = ((1 : ℝ) : EReal) by norm_cast]
  simp [one, Ideal.ofBits, Ideal.ieee, -EReal.coe_mul]; norm_num

/-- The pattern of the float −∞ is the bottom element. -/
theorem negInf_eq : negInf = ⊥ := by
  simp [negInf, Ideal.ofBits, Ideal.ieee]

/-! ### Finite sums of real numbers -/

/-- A finite sum of coerced reals is the coerced real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ### The logits on real arguments -/

section LogitsReal
variable (x : Fin 128 → Fin 16384 → EReal) (cw : Fin 32 → Fin 128 → EReal) (sc : Fin 32 → EReal)
variable (X : Fin 128 → Fin 16384 → ℝ) (C : Fin 32 → Fin 128 → ℝ) (S : Fin 32 → ℝ)

/-- The squared norm of a real feature vector is the real squared norm. -/
theorem sqNorm_coe (hx : ∀ d n, x d n = ((X d n : ℝ) : EReal)) (n : Fin 16384) :
    sqNorm x n = ((∑ d : Fin 128, X d n * X d n : ℝ) : EReal) := by
  unfold sqNorm
  rw [← coe_finset_sum]
  refine Finset.sum_congr rfl (fun d _ => ?_)
  rw [hx, EReal.coe_mul]

/-- The squared norm of a real codeword is the real squared norm. -/
theorem cwSq_coe (hc : ∀ k d, cw k d = ((C k d : ℝ) : EReal)) (k : Fin 32) :
    cwSq cw k = ((∑ d : Fin 128, C k d * C k d : ℝ) : EReal) := by
  unfold cwSq
  rw [← coe_finset_sum]
  refine Finset.sum_congr rfl (fun d _ => ?_)
  rw [hc, EReal.coe_mul]

/-- The inner product of a real feature vector with a real codeword. -/
theorem inner_coe (hx : ∀ d n, x d n = ((X d n : ℝ) : EReal)) (hc : ∀ k d, cw k d = ((C k d : ℝ) : EReal))
    (k : Fin 32) (n : Fin 16384) :
    (∑ d : Fin 128, x d n * cw k d) = ((∑ d : Fin 128, X d n * C k d : ℝ) : EReal) := by
  rw [← coe_finset_sum]
  refine Finset.sum_congr rfl (fun d _ => ?_)
  rw [hx, hc, EReal.coe_mul]

/-- The inner product with the codeword scaled beforehand by the negated scale. -/
theorem innerK_coe (hx : ∀ d n, x d n = ((X d n : ℝ) : EReal)) (hc : ∀ k d, cw k d = ((C k d : ℝ) : EReal))
    (hs : ∀ k, sc k = ((S k : ℝ) : EReal)) (k : Fin 32) (n : Fin 16384) :
    (∑ d : Fin 128, ((0 - sc k) * cw k d) * x d n)
      = ((∑ d : Fin 128, ((0 - S k) * C k d) * X d n : ℝ) : EReal) := by
  rw [← coe_finset_sum]
  refine Finset.sum_congr rfl (fun d _ => ?_)
  rw [hx, hc, hs, EReal.coe_mul, EReal.coe_mul, EReal.coe_sub, EReal.coe_zero]

/-- The factored logit of real arguments is a real number, namely the real formula. -/
theorem logit_coe (hx : ∀ d n, x d n = ((X d n : ℝ) : EReal)) (hc : ∀ k d, cw k d = ((C k d : ℝ) : EReal))
    (hs : ∀ k, sc k = ((S k : ℝ) : EReal)) (k : Fin 32) (n : Fin 16384) :
    logit x cw sc k n
      = (((-(S k)) * (((∑ d : Fin 128, X d n * X d n) - 2 * ∑ d : Fin 128, X d n * C k d)
            + ∑ d : Fin 128, C k d * C k d) : ℝ) : EReal) := by
  unfold logit
  rw [sqNorm_coe x X hx, cwSq_coe cw C hc, inner_coe x cw X C hx hc, two_eq, hs k]
  rw [EReal.coe_mul, EReal.coe_add, EReal.coe_sub, EReal.coe_mul, EReal.coe_neg]

/-- The distributed logit of real arguments is a real number, namely the distributed real formula. -/
theorem logitK_coe (hx : ∀ d n, x d n = ((X d n : ℝ) : EReal)) (hc : ∀ k d, cw k d = ((C k d : ℝ) : EReal))
    (hs : ∀ k, sc k = ((S k : ℝ) : EReal)) (k : Fin 32) (n : Fin 16384) :
    logitK x cw sc k n
      = (((((0 - S k) * (∑ d : Fin 128, X d n * X d n))
            - 2 * ∑ d : Fin 128, ((0 - S k) * C k d) * X d n)
            + (0 - S k) * ∑ d : Fin 128, C k d * C k d : ℝ) : EReal) := by
  unfold logitK
  rw [sqNorm_coe x X hx, cwSq_coe cw C hc, innerK_coe x cw sc X C S hx hc hs, two_eq, hs k]
  rw [EReal.coe_add, EReal.coe_sub, EReal.coe_mul, EReal.coe_mul, EReal.coe_mul, EReal.coe_sub,
    EReal.coe_zero]

/-- On real arguments the distributed and the factored logits are the same function. -/
theorem logitK_eq_logit (hx : ∀ d n, ∃ r : ℝ, x d n = (r : EReal)) (hc : ∀ k d, ∃ r : ℝ, cw k d = (r : EReal))
    (hs : ∀ k, ∃ r : ℝ, sc k = (r : EReal)) : logitK x cw sc = logit x cw sc := by
  choose X hX using hx
  choose C hC using hc
  choose S hS using hs
  funext k n
  rw [logitK_coe x cw sc X C S hX hC hS, logit_coe x cw sc X C S hX hC hS]
  congr 1
  have h : (∑ d : Fin 128, ((0 - S k) * C k d) * X d n) = (0 - S k) * ∑ d : Fin 128, X d n * C k d := by
    rw [Finset.mul_sum]
    exact Finset.sum_congr rfl (fun d _ => by ring)
  rw [h]
  ring

/-- The factored logits of real arguments are real numbers. -/
theorem logit_real (hx : ∀ d n, ∃ r : ℝ, x d n = (r : EReal)) (hc : ∀ k d, ∃ r : ℝ, cw k d = (r : EReal))
    (hs : ∀ k, ∃ r : ℝ, sc k = (r : EReal)) (k : Fin 32) (n : Fin 16384) :
    ∃ r : ℝ, logit x cw sc k n = (r : EReal) := by
  choose X hX using hx
  choose C hC using hc
  choose S hS using hs
  exact ⟨_, logit_coe x cw sc X C S hX hC hS k n⟩

end LogitsReal

/-! ### The softmax weights on real logits -/

/-- The fold of `max` from the bottom element over a nonempty finite family of reals is a real. -/
theorem fold_max_real {ι : Type*} [DecidableEq ι] (f : ι → ℝ) (s : Finset ι) (hs : s.Nonempty) :
    ∃ m : ℝ, s.fold max (⊥ : EReal) (fun k => ((f k : ℝ) : EReal)) = (m : EReal) := by
  induction s using Finset.induction_on with
  | empty => exact absurd hs Finset.not_nonempty_empty
  | insert a s ha ih =>
    rw [Finset.fold_insert ha]
    rcases s.eq_empty_or_nonempty with h | h
    · subst h
      exact ⟨f a, by simp⟩
    · obtain ⟨m, hm⟩ := ih h
      exact ⟨max (f a) m, by rw [hm, EReal.coe_strictMono.monotone.map_max]⟩

section SoftmaxReal
variable (L : Fin 32 → Fin 16384 → EReal)

/-- The column maximum of real logits is a real number. -/
theorem colMax_real (hL : ∀ k n, ∃ r : ℝ, L k n = (r : EReal)) (n : Fin 16384) :
    ∃ m : ℝ, colMax L n = (m : EReal) := by
  choose ℓ hℓ using hL
  unfold colMax
  rw [negInf_eq, show (fun k => L k n) = (fun k => ((ℓ k n : ℝ) : EReal)) from funext (fun k => hℓ k n)]
  exact fold_max_real (fun k => ℓ k n) Finset.univ Finset.univ_nonempty

/-- Each shifted exponential of real logits is a positive real number. -/
theorem expo_real_pos (hL : ∀ k n, ∃ r : ℝ, L k n = (r : EReal)) (k : Fin 32) (n : Fin 16384) :
    ∃ e : ℝ, 0 < e ∧ expo L k n = (e : EReal) := by
  obtain ⟨m, hm⟩ := colMax_real L hL n
  obtain ⟨r, hr⟩ := hL k n
  refine ⟨Real.exp (r - m), Real.exp_pos _, ?_⟩
  unfold expo
  rw [hm, hr, ← EReal.coe_sub, Ideal.exp_coe]

/-- The softmax denominator of real logits is a positive real number. -/
theorem denom_real_pos (hL : ∀ k n, ∃ r : ℝ, L k n = (r : EReal)) (n : Fin 16384) :
    ∃ D : ℝ, 0 < D ∧ (∑ k' : Fin 32, expo L k' n) = (D : EReal) := by
  choose e he_pos he using (fun k' => expo_real_pos L hL k' n)
  refine ⟨∑ k' : Fin 32, e k', Finset.sum_pos (fun k' _ => he_pos k') Finset.univ_nonempty, ?_⟩
  rw [← coe_finset_sum]
  exact Finset.sum_congr rfl (fun k' _ => he k')

/-- On real logits the product with the reciprocal of the denominator is the quotient by it. -/
theorem weightK_eq_weight (hL : ∀ k n, ∃ r : ℝ, L k n = (r : EReal)) : weightK L = weight L := by
  funext k n
  obtain ⟨D, hDpos, hD⟩ := denom_real_pos L hL n
  have hne : ((D : ℝ) : EReal) ≠ 0 := EReal.coe_ne_zero.mpr hDpos.ne'
  unfold weightK weight
  rw [hD, Ideal.div, Ideal.div, if_neg hne, if_neg hne, one_eq, one_mul]

end SoftmaxReal

/-! ### The two spellings of the result -/

/-- When every entry of the input, the codewords and the scales is a real number, the distributed
    spelling of the result equals the factored one. -/
theorem resultK_eq_result (xr : (⟨3, ![32, 128, 16384]⟩ : Shape).Idx → EReal)
    (c : (⟨2, ![32, 128]⟩ : Shape).Idx → EReal) (s : (⟨1, ![32]⟩ : Shape).Idx → EReal)
    (hx : ∀ i, ∃ r : ℝ, xr i = (r : EReal)) (hc : ∀ i, ∃ r : ℝ, c i = (r : EReal))
    (hs : ∀ i, ∃ r : ℝ, s i = (r : EReal)) :
    resultK xr c s = result xr c s := by
  have hx' : ∀ b d n, ∃ r : ℝ, slab xr b d n = (r : EReal) := fun b d n => hx _
  have hc' : ∀ k d, ∃ r : ℝ, cwOf c k d = (r : EReal) := fun k d => hc _
  have hs' : ∀ k, ∃ r : ℝ, scOf s k = (r : EReal) := fun k => hs _
  unfold resultK result
  funext i
  rw [logitK_eq_logit _ _ _ (hx' (i 0)) hc' hs',
    weightK_eq_weight _ (logit_real _ _ _ (hx' (i 0)) hc' hs')]

end Cert.Encoding

end
-- ==== Proof.Finite.lean ====
/-
  The precondition `finite_inputs`, read back. The printed predicate is the conjunction of three
  `jnp.all(|v| < +∞)`, one per argument array. Each `jnp.all` is a reduction by `and` over every axis of the array of
  comparisons `|v i| < +∞`; a reduction by `and` that is 1 met only 1s, so each comparison is 1. At the ideal values
  the comparison is the extended reals' order, `|x| = max x (-x)`, and the pattern 0x7F800000 is `⊤`: both infinities
  have `|x| = ⊤`, which is not below `⊤`, so an entry whose comparison is 1 is (the coercion of) a real number.
-/
import proofs.«141829_j63986422776020_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic

/-- The scalar shape has one index. -/
instance subsingleton_S_ : Subsingleton S_.Idx := ⟨fun a b => funext fun d => d.elim0⟩

/-- The pattern 0x7F800000 (sign 0, exponent all ones, significand 0) is `+∞`. -/
theorem inf_eq_top : Ideal.ofBits .f32 0x7F800000#32 = (⊤ : EReal) := by simp [Ideal.ofBits, Ideal.ieee]

/-- An extended real whose absolute value `max x (-x)` is below `⊤` is a real number: `|⊥| = |⊤| = ⊤`. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- One element: the host's `|x| < +∞` that is 1 says `x` is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  apply real_of_abs_lt_top
  rw [← inf_eq_top]
  exact h

/-- A `jnp.all(|v| < +∞)` that is 1 makes every entry of `v` a real number, at any shape. -/
theorem all_real {s : Shape} {axes : List (Fin s.rank)} (v : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf v) (broadcastInDim s ![] hb (constant (F := Ideal) S_ .f32 0x7F800000#32)))
          (constantI S_ 1 1#1) hr hu j = 1#1)
    (i : s.Idx) : ∃ r : ℝ, v i = (r : EReal) :=
  real_of_cmp (v i) (Host.reduce_andi_all _ _ hr hu j e i)

/-- THE PRECONDITION DECODED: every entry of the three argument arrays is a real number. -/
theorem real_of_pre [Cert.Pre_finite_inputs.Facts] (a0 : FVec Ideal S32x128x128x128 .f32) (a1 : FVec Ideal S32x128 .f32)
    (a2 : FVec Ideal S32 .f32) (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  unfold Cert.Pre_finite_inputs.fn at e
  simp only [andi, IntOp.andi_eq_one] at e
  obtain ⟨⟨e0, e1⟩, e2⟩ := e
  exact ⟨all_real a0 _ _ _ _ e0, all_real a1 _ _ _ _ e1, all_real a2 _ _ _ _ e2⟩

end Cert.Pre_finite_inputs.Finite

end
-- ==== Proof.RefSpec.lean ====
/-
  The reference program computes the specification.

  Every stage of the reference's run is read at an index given by its coordinates, bottom-up, one named
  quantity of the specification at a time: the squared norms, the inner product, the logits, their
  column maximum, the shifted exponentials and their sum, the softmax weights, the two sums over the
  positions, and the aggregated residuals. The first stage (the input viewed as [32, 128, 16384]) is
  not opened: the specification is stated over it.
-/
import proofs.«141829_j63986422776020_2_alg».proof.Proof.Spec
import proofs.«141829_j63986422776020_2_alg».proof.Proof.Gen.ReferenceIdeal.Read
import Idealize.ShloMosaic.Lib.ValueIdx
import Idealize.ShloMosaic.PureOps.Ideal.Laws
import Idealize.ShloMosaic.PureOps.Reduce

noncomputable section

open scoped BigOperators

namespace Cert.ReferenceIdeal.RefSpec

open Cert.ReferenceIdeal Cert.ReferenceIdeal.Gen Cert.ReferenceIdeal.Read Idealize.ShloMosaic
  Idealize.ShloMosaic.ValueIdx Idealize.ShloMosaic.TcCoe Cert.Encoding

variable (x0 : (⟨S32x128x128x128, .f32⟩ : BufTy).Contents (Elt Ideal))
  (x1 : (⟨S32x128, .f32⟩ : BufTy).Contents (Elt Ideal))
  (x2 : (⟨S32, .f32⟩ : BufTy).Contents (Elt Ideal))

/-- The transposed input at (b, n, d) is batch entry b of the input at (d, n). -/
theorem v1_at (b : Fin 32) (n : Fin 16384) (d : Fin 128) :
    val_main_v1 (F := Ideal) x0 (ix3 b n d) = slab (val_main_v0 (F := Ideal) x0) b d n := by
  rw [val_main_v1_apply]
  have e : idx_main_v1 (ix3 b n d) = ix3 b d n := funext fun a =>
    match a with | ⟨0, _⟩ => rfl | ⟨1, _⟩ => rfl | ⟨2, _⟩ => rfl
  rw [e]; rfl

/-- The squared norm of the feature vector at position n. -/
theorem v3_at (b : Fin 32) (n : Fin 16384) :
    val_main_v3 (F := Ideal) x0 (ix2 b n) = sqNorm (slab (val_main_v0 (F := Ideal) x0) b) n := by
  rw [val_main_v3_apply,
    show val_main_cst (F := Ideal) (Shape.Idx.first h_S_) = 0 from Ideal.ofBits_zero_f32, zero_add]
  unfold sqNorm
  refine Finset.sum_congr rfl fun d _ => ?_
  have e : idx_main_v3 (ix2 b n) d = ix3 b n d := funext fun a =>
    match a with | ⟨0, _⟩ => rfl | ⟨1, _⟩ => rfl | ⟨2, _⟩ => rfl
  rw [val_main_v2_apply, e, v1_at]; rfl

/-- The squared norm of codeword k. -/
theorem v5_at (k : Fin 32) : val_main_v5 (F := Ideal) x1 (ix1 k) = cwSq (cwOf x1) k := by
  rw [val_main_v5_apply,
    show val_main_cst_0 (F := Ideal) (Shape.Idx.first h_S_) = 0 from Ideal.ofBits_zero_f32, zero_add]
  unfold cwSq
  refine Finset.sum_congr rfl fun d _ => ?_
  have e : idx_main_v5 (ix1 k) d = ix2 k d := funext fun a =>
    match a with | ⟨0, _⟩ => rfl | ⟨1, _⟩ => rfl
  rw [val_main_v4_apply, e]; rfl

/-- The inner product of the feature vector at position n with codeword k. -/
theorem v6_at (b : Fin 32) (n : Fin 16384) (k : Fin 32) :
    val_main_v6 (F := Ideal) x0 x1 (ix3 b n k)
      = ∑ d : Fin 128, slab (val_main_v0 (F := Ideal) x0) b d n * cwOf x1 k d := by
  rw [val_main_v6_apply]
  refine Finset.sum_congr rfl fun d _ => ?_
  have el : lidx_main_v6 (ix3 b n k) d = ix3 b n d := funext fun a =>
    match a with | ⟨0, _⟩ => rfl | ⟨1, _⟩ => rfl | ⟨2, _⟩ => rfl
  have er : ridx_main_v6 (ix3 b n k) d = ix2 k d := funext fun a =>
    match a with | ⟨0, _⟩ => rfl | ⟨1, _⟩ => rfl
  rw [el, er, v1_at]; rfl

/-- The logits: minus the scale times the squared distance. -/
theorem v18_at (b : Fin 32) (n : Fin 16384) (k : Fin 32) :
    val_main_v18 (F := Ideal) x0 x1 x2 (ix3 b n k)
      = logit (slab (val_main_v0 (F := Ideal) x0) b) (cwOf x1) (scOf x2) k n := by
  have e3 : idx_main_v7 (idx_main_v10 (ix3 b n k)) = ix2 b n := funext fun a =>
    match a with | ⟨0, _⟩ => rfl | ⟨1, _⟩ => rfl
  have e5 : idx_main_v12 (idx_main_v13 (ix3 b n k)) = ix1 k := funext fun a =>
    match a with | ⟨0, _⟩ => rfl
  have e2 : idx_main_v15 (idx_main_v17 (ix3 b n k)) = ix1 k := funext fun a =>
    match a with | ⟨0, _⟩ => rfl
  rw [val_main_v18_apply, val_main_v17_apply, val_main_v16_apply, val_main_v15_apply, e2,
    val_main_v14_apply, val_main_v11_apply, val_main_v10_apply, val_main_v7_apply, e3, v3_at,
    val_main_v9_apply, val_main_v8_apply, val_main_cst_1_apply, v6_at,
    val_main_v13_apply, val_main_v12_apply, e5, v5_at]
  rfl

/-- The reduction with maximum over the codewords, read as the fold of max from minus infinity. -/
theorem v19_at (b : Fin 32) (n : Fin 16384) :
    val_main_v19 (F := Ideal) x0 x1 x2 (ix2 b n)
      = colMax (logit (slab (val_main_v0 (F := Ideal) x0) b) (cwOf x1) (scOf x2)) n := by
  have h : Shape.Reduces S32x16384x32 [2] S32x16384 := by decide
  unfold val_main_v19
  rw [Host.reduce_eq_fold_single FloatOps.maximumf _ _ reducesTo_S32x16384x32_S32x16384_d2 h h_S_ (ix2 b n)]
  unfold colMax
  show (Finset.univ : Finset (Fin 32)).fold max negInf
      (fun k : Fin 32 => val_main_v18 (F := Ideal) x0 x1 x2 (h.lift (ix2 b n) k)) = _
  refine Finset.fold_congr fun (k : Fin 32) _ => ?_
  have e : h.lift (ix2 b n) k = ix3 b n k := funext fun a => Fin.ext
    (match a with | ⟨0, _⟩ => rfl | ⟨1, _⟩ => rfl | ⟨2, _⟩ => rfl)
  rw [e, v18_at]

/-- Taking the maximum with minus infinity once more changes nothing: the fold started there. -/
theorem v21_at (b : Fin 32) (n : Fin 16384) :
    val_main_v21 (F := Ideal) x0 x1 x2 (ix2 b n)
      = colMax (logit (slab (val_main_v0 (F := Ideal) x0) b) (cwOf x1) (scOf x2)) n := by
  rw [val_main_v21_apply, val_main_v20_apply, val_main_cst_3_apply, v19_at]
  show max negInf (colMax _ n) = colMax _ n
  refine max_eq_right ?_
  unfold colMax
  exact (Finset.le_fold_max negInf).mpr (Or.inl le_rfl)

/-- The shifted exponential. -/
theorem v25_at (b : Fin 32) (n : Fin 16384) (k : Fin 32) :
    val_main_v25 (F := Ideal) x0 x1 x2 (ix3 b n k)
      = expo (logit (slab (val_main_v0 (F := Ideal) x0) b) (cwOf x1) (scOf x2)) k n := by
  have e : idx_main_v22 (idx_main_v23 (ix3 b n k)) = ix2 b n := funext fun a =>
    match a with | ⟨0, _⟩ => rfl | ⟨1, _⟩ => rfl
  rw [val_main_v25_apply, val_main_v24_apply, v18_at, val_main_v23_apply, val_main_v22_apply, e, v21_at]
  rfl

/-- The softmax denominator. -/
theorem v26_at (b : Fin 32) (n : Fin 16384) :
    val_main_v26 (F := Ideal) x0 x1 x2 (ix2 b n)
      = ∑ k' : Fin 32, expo (logit (slab (val_main_v0 (F := Ideal) x0) b) (cwOf x1) (scOf x2)) k' n := by
  rw [val_main_v26_apply,
    show val_main_cst_4 (F := Ideal) (Shape.Idx.first h_S_) = 0 from Ideal.ofBits_zero_f32, zero_add]
  refine Finset.sum_congr rfl fun k _ => ?_
  have e : idx_main_v26 (ix2 b n) k = ix3 b n k := funext fun a =>
    match a with | ⟨0, _⟩ => rfl | ⟨1, _⟩ => rfl | ⟨2, _⟩ => rfl
  rw [e, v25_at]

/-- The softmax weight. -/
theorem v29_at (b : Fin 32) (n : Fin 16384) (k : Fin 32) :
    val_main_v29 (F := Ideal) x0 x1 x2 (ix3 b n k)
      = weight (logit (slab (val_main_v0 (F := Ideal) x0) b) (cwOf x1) (scOf x2)) k n := by
  have e : idx_main_v27 (idx_main_v28 (ix3 b n k)) = ix2 b n := funext fun a =>
    match a with | ⟨0, _⟩ => rfl | ⟨1, _⟩ => rfl
  rw [val_main_v29_apply, v25_at, val_main_v28_apply, val_main_v27_apply, e, v26_at]
  rfl

/-- The weighted sum of the features over the positions. -/
theorem v30_at (b : Fin 32) (k : Fin 32) (d : Fin 128) :
    val_main_v30 (F := Ideal) x0 x1 x2 (ix3 b k d)
      = ∑ n : Fin 16384, weight (logit (slab (val_main_v0 (F := Ideal) x0) b) (cwOf x1) (scOf x2)) k n
          * slab (val_main_v0 (F := Ideal) x0) b d n := by
  rw [val_main_v30_apply]
  refine Finset.sum_congr rfl fun n _ => ?_
  have el : lidx_main_v30 (ix3 b k d) n = ix3 b n k := funext fun a =>
    match a with | ⟨0, _⟩ => rfl | ⟨1, _⟩ => rfl | ⟨2, _⟩ => rfl
  have er : ridx_main_v30 (ix3 b k d) n = ix3 b n d := funext fun a =>
    match a with | ⟨0, _⟩ => rfl | ⟨1, _⟩ => rfl | ⟨2, _⟩ => rfl
  rw [el, er, v29_at, v1_at]

/-- The sum of the weights over the positions. -/
theorem v31_at (b : Fin 32) (k : Fin 32) :
    val_main_v31 (F := Ideal) x0 x1 x2 (ix2 b k)
      = ∑ n : Fin 16384, weight (logit (slab (val_main_v0 (F := Ideal) x0) b) (cwOf x1) (scOf x2)) k n := by
  rw [val_main_v31_apply,
    show val_main_cst_5 (F := Ideal) (Shape.Idx.first h_S_) = 0 from Ideal.ofBits_zero_f32, zero_add]
  refine Finset.sum_congr rfl fun n _ => ?_
  have e : idx_main_v31 (ix2 b k) n = ix3 b n k := funext fun a =>
    match a with | ⟨0, _⟩ => rfl | ⟨1, _⟩ => rfl | ⟨2, _⟩ => rfl
  rw [e, v29_at]

/-- The total weight of codeword k times the codeword. -/
theorem v36_at (b : Fin 32) (k : Fin 32) (d : Fin 128) :
    val_main_v36 (F := Ideal) x0 x1 x2 (ix3 b k d)
      = (∑ n : Fin 16384, weight (logit (slab (val_main_v0 (F := Ideal) x0) b) (cwOf x1) (scOf x2)) k n)
          * cwOf x1 k d := by
  have e1 : idx_main_v32 (idx_main_v34 (ix3 b k d)) = ix2 b k := funext fun a =>
    match a with | ⟨0, _⟩ => rfl | ⟨1, _⟩ => rfl
  have e2 : idx_main_v33 (idx_main_v35 (ix3 b k d)) = ix2 k d := funext fun a =>
    match a with | ⟨0, _⟩ => rfl | ⟨1, _⟩ => rfl
  rw [val_main_v36_apply, val_main_v34_apply, val_main_v32_apply, e1, v31_at,
    val_main_v35_apply, val_main_v33_apply, e2]
  rfl

/-- THE REFERENCE COMPUTES THE SPECIFICATION: the value before the final reshape is the aggregated
    residuals of the softmax weights of the scaled squared distances, at every index. -/
theorem ref_result :
    val_main_v37 (F := Ideal) x0 x1 x2 = Cert.Encoding.result (val_main_v0 (F := Ideal) x0) x1 x2 := by
  funext i
  obtain ⟨b, k, d, rfl⟩ : ∃ b k d, i = ix3 b k d := ⟨i 0, i 1, i 2, eq_ix3 i⟩
  rw [val_main_v37_apply, v30_at, v36_at]
  rfl

end Cert.ReferenceIdeal.RefSpec

end
-- ==== Proof.Payload.lean ====
/-
  The body's arithmetic read at an index. The body of one grid point computes, from the point's
  block x0 : [1,128,16384] of the input, the codewords x1 : [32,128] and the scales x2 : [32,1],
  the block [1,32,128] it stores. Here each intermediate value of that computation is named, and
  read at an index with explicit coordinates: the layout operations (casts that add or drop a unit
  axis, row and column broadcasts) move coordinates, the lane reductions are sums or a fold of max
  over the reduced axis, and the two matrix products are sums over the contracted axis. The stored
  block at (0, k, d) is the distributed spelling of the specification, `enc … (weightK (logitK …))`.
-/
import proofs.«141829_j63986422776020_2_alg».proof.Proof.Spec
import proofs.«141829_j63986422776020_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Encoding

/-! ## Column layouts read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The intermediate values, named -/

section Named
variable (x0 : Vec Ideal S1x128x16384 .f32) (x1 : Vec Ideal S32x128 .f32) (x2 : Vec Ideal S32x1 .f32)

/-- The negated scales, a column. -/
def negScale : FVec Ideal S32x1 .f32 :=
  subf (broadcast S32x1 (Scalar.ofBits .f32 0x00000000#32)) (shapeCast S32x1 x2 shapeCasts_S32x1_S32x1)
/-- The squared norms of the positions' feature vectors, a row. -/
def sqRow : FVec Ideal S1x16384 .f32 :=
  shapeCast S1x16384 (multiReduction .add [0] S16384 (mulf (k0_pay2 x0) (k0_pay2 x0)) 0x00000000#32 reduces_S128x16384_S16384 (.inl rfl) rfl) shapeCasts_S16384_S1x16384
/-- The squared norms of the codewords, a column. -/
def cwSqCol : FVec Ideal S32x1 .f32 :=
  shapeCast S32x1 (multiReduction .add [1] S32 (mulf x1 x1) 0x00000000#32 reduces_S32x128_S32 (.inl rfl) rfl) shapeCasts_S32_S32x1
/-- The inner products of the scaled codewords with the feature vectors. -/
def scaledDot : FVec Ideal S32x16384 .f32 :=
  matmul dot_S32x128_S128x16384_S32x16384_1_0_0_1_n_n none
    (truncf .bf16 (mulf (broadcastTo S32x128 (negScale x2) broadcasts_S32x1_S32x128) x1) bitsLt_bf16_f32) (k0_pay3 x0)
    (constant S32x16384 .f32 0x00000000#32)
/-- The logits. -/
def logits : FVec Ideal S32x16384 .f32 :=
  addf (subf (mulf (broadcastTo S32x16384 (negScale x2) broadcasts_S32x1_S32x16384) (broadcastTo S32x16384 (sqRow x0) broadcasts_S1x16384_S32x16384))
      (mulf (broadcast S32x16384 (Scalar.ofBits .f32 0x40000000#32)) (scaledDot x0 x1 x2)))
    (broadcastTo S32x16384 (mulf (negScale x2) (cwSqCol x1)) broadcasts_S32x1_S32x16384)

variable (L : FVec Ideal S32x16384 .f32)
/-- The largest logit of each position, a row. -/
def maxRow : FVec Ideal S1x16384 .f32 :=
  shapeCast S1x16384 (multiReduction .maximumf [0] S16384 L 0xFF800000#32 reduces_S32x16384_S16384 (.inl rfl) rfl) shapeCasts_S16384_S1x16384
/-- The shifted exponentials. -/
def expos : FVec Ideal S32x16384 .f32 := exp (subf L (broadcastTo S32x16384 (maxRow L) broadcasts_S1x16384_S32x16384))
/-- The softmax denominators, a row. -/
def denRow : FVec Ideal S1x16384 .f32 :=
  shapeCast S1x16384 (multiReduction .add [0] S16384 (expos L) 0x00000000#32 reduces_S32x16384_S16384 (.inl rfl) rfl) shapeCasts_S16384_S1x16384
/-- The assignment weights. -/
def weights : FVec Ideal S32x16384 .f32 :=
  mulf (expos L) (broadcastTo S32x16384 (divf (broadcast S1x16384 (Scalar.ofBits .f32 0x3F800000#32)) (denRow L)) broadcasts_S1x16384_S32x16384)

variable (A : FVec Ideal S32x16384 .f32)
/-- The weights summed over the positions, a column. -/
def sumW : FVec Ideal S32x1 .f32 :=
  shapeCast S32x1 (multiReduction .add [1] S32 A 0x00000000#32 reduces_S32x16384_S32 (.inl rfl) rfl) shapeCasts_S32_S32x1
/-- The weighted sums of the feature vectors. -/
def aggr : FVec Ideal S32x128 .f32 :=
  matmul dot_S32x16384_S128x16384_S32x128_1_1_0_0_n_n none (truncf .bf16 A bitsLt_bf16_f32) (k0_pay3 x0) (constant S32x128 .f32 0x00000000#32)
/-- The stored block. -/
def stored : FVec Ideal S1x32x128 .f32 :=
  shapeCast S1x32x128 (subf (aggr x0 A) (mulf (broadcastTo S32x128 (sumW A) broadcasts_S32x1_S32x128) x1)) shapeCasts_S32x128_S1x32x128

/-- The printed payloads are these values. -/
theorem pay4_eq : k0_pay4 x0 x1 x2 = weights (logits x0 x1 x2) := rfl
theorem pay5_eq : k0_pay5 x0 x1 x2 = sumW (k0_pay4 x0 x1 x2) := rfl
theorem pay6_eq : k0_pay6 x0 x1 x2 = aggr x0 (k0_pay4 x0 x1 x2) := rfl
theorem pay1_eq : k0_pay1 x1 (k0_pay5 x0 x1 x2) (k0_pay6 x0 x1 x2) = stored x0 x1 (weights (logits x0 x1 x2)) := rfl

end Named

/-! ## The values read at an index -/

section AtIndex
variable (x0 : Vec Ideal S1x128x16384 .f32) (x1 : Vec Ideal S32x128 .f32) (x2 : Vec Ideal S32x1 .f32)

/-- The block's feature vectors, codewords and scales by coordinates. -/
def xb : Fin 128 → Fin 16384 → EReal := fun d n => x0 (ix3 (0 : Fin 1) d n)
def cwb : Fin 32 → Fin 128 → EReal := fun k d => x1 (ix2 k d)
def scb : Fin 32 → EReal := fun k => x2 (ix2 k (0 : Fin 1))

theorem pay2_apply (d : Fin 128) (n : Fin 16384) : k0_pay2 x0 (ix2 d n) = x0 (ix3 (0 : Fin 1) d n) :=
  shapeCast_1ab_ab_apply x0 shapeCasts_S1x128x16384_S128x16384 d n

theorem pay3_apply (d : Fin 128) (n : Fin 16384) : k0_pay3 x0 (ix2 d n) = x0 (ix3 (0 : Fin 1) d n) :=
  pay2_apply x0 d n

theorem negScale_apply (k : Fin 32) : negScale x2 (ix2 k (0 : Fin 1)) = 0 - x2 (ix2 k (0 : Fin 1)) := by
  show Ideal.ofBits .f32 0x00000000#32 - shapeCast S32x1 x2 shapeCasts_S32x1_S32x1 (ix2 k (0 : Fin 1)) = _
  rw [shapeCast_self, Ideal.ofBits_zero_f32]

theorem sqRow_apply (n : Fin 16384) : sqRow x0 (ix2 (0 : Fin 1) n) = sqNorm (xb x0) n := by
  unfold sqRow
  rw [shapeCast_a_1a_apply]
  refine (Ideal.multiReduction_add_single _ _ reduces_S128x16384_S16384 _ _ (ix1 n)).trans ?_
  show ∑ d : Fin 128, _ = ∑ d : Fin 128, _
  refine Finset.sum_congr rfl fun d _ => ?_
  have e : reduces_S128x16384_S16384.lift (ix1 n) d = ix2 d n :=
    funext fun a => Fin.ext (by match a with | ⟨0, _⟩ => rfl | ⟨1, _⟩ => rfl)
  rw [e]
  show k0_pay2 x0 (ix2 d n) * k0_pay2 x0 (ix2 d n) = _
  rw [pay2_apply]
  rfl

theorem cwSqCol_apply (k : Fin 32) : cwSqCol x1 (ix2 k (0 : Fin 1)) = cwSq (cwb x1) k := by
  unfold cwSqCol
  rw [shapeCast_a_a1_apply]
  refine (Ideal.multiReduction_add_single _ _ reduces_S32x128_S32 _ _ (ix1 k)).trans ?_
  show ∑ d : Fin 128, _ = ∑ d : Fin 128, _
  refine Finset.sum_congr rfl fun d _ => ?_
  have e : reduces_S32x128_S32.lift (ix1 k) d = ix2 k d :=
    funext fun a => Fin.ext (by match a with | ⟨0, _⟩ => rfl | ⟨1, _⟩ => rfl)
  rw [e]
  rfl

end AtIndex

end Cert.KernelIdeal.Payload

end
-- ==== Proof.PayloadIdx.lean ====
/-
  The stored block read at an index is the distributed spelling of the specification.
-/
import proofs.«141829_j63986422776020_2_alg».proof.Proof.Payload

noncomputable section

open scoped BigOperators

namespace Cert.KernelIdeal.Payload

open Cert.KernelIdeal Cert.KernelIdeal.Gen Idealize.ShloMosaic Idealize.ShloMosaic.ValueIdx Cert.Encoding

variable (x0 : Vec Ideal S1x128x16384 .f32) (x1 : Vec Ideal S32x128 .f32) (x2 : Vec Ideal S32x1 .f32)

/-! ## The first matrix product: scaled codewords against feature vectors -/

theorem sd_lhs_0 (j : S32x16384.Idx) (q : dot_S32x128_S128x16384_S32x16384_1_0_0_1_n_n.contr.Idx) :
    (dot_S32x128_S128x16384_S32x16384_1_0_0_1_n_n.lhsIdx j q 0).val = (j 0).val := by
  unfold DotDims.lhsIdx
  rw [dif_neg (show ¬(0 : Fin S32x128.rank) ∈ dot_S32x128_S128x16384_S32x16384_1_0_0_1_n_n.lhsBatch by decide), dif_pos (show (0 : Fin S32x128.rank) ∈ dot_S32x128_S128x16384_S32x16384_1_0_0_1_n_n.lhsNonContracting by decide)]
  rfl
theorem sd_lhs_1 (j : S32x16384.Idx) (q : dot_S32x128_S128x16384_S32x16384_1_0_0_1_n_n.contr.Idx) :
    (dot_S32x128_S128x16384_S32x16384_1_0_0_1_n_n.lhsIdx j q 1).val = (q ⟨0, by decide⟩).val :=
  dot_S32x128_S128x16384_S32x16384_1_0_0_1_n_n.lhsIdx_val_of_single rfl j q
theorem sd_rhs_0 (j : S32x16384.Idx) (q : dot_S32x128_S128x16384_S32x16384_1_0_0_1_n_n.contr.Idx) :
    (dot_S32x128_S128x16384_S32x16384_1_0_0_1_n_n.rhsIdx j q 0).val = (q ⟨0, by decide⟩).val :=
  dot_S32x128_S128x16384_S32x16384_1_0_0_1_n_n.rhsIdx_val_of_single rfl j q
theorem sd_rhs_1 (j : S32x16384.Idx) (q : dot_S32x128_S128x16384_S32x16384_1_0_0_1_n_n.contr.Idx) :
    (dot_S32x128_S128x16384_S32x16384_1_0_0_1_n_n.rhsIdx j q 1).val = (j 1).val := by
  unfold DotDims.rhsIdx
  rw [dif_neg (show ¬(1 : Fin S128x16384.rank) ∈ dot_S32x128_S128x16384_S32x16384_1_0_0_1_n_n.rhsBatch by decide), dif_pos (show (1 : Fin S128x16384.rank) ∈ dot_S32x128_S128x16384_S32x16384_1_0_0_1_n_n.rhsNonContracting by decide)]
  rfl

/-- The first matrix product at (k, n): the sum over the features of the scaled codeword's entry times the
    feature vector's entry. -/
theorem scaledDot_apply (k : Fin 32) (n : Fin 16384) :
    scaledDot x0 x1 x2 (ix2 k n)
      = ∑ d : Fin 128, ((0 - x2 (ix2 k (0 : Fin 1))) * x1 (ix2 k d)) * x0 (ix3 (0 : Fin 1) d n) := by
  unfold scaledDot
  simp only [matmul]
  rw [Ideal.matmul_constant_zero_apply, ← Equiv.sum_comp (ValueIdx.contrEquiv1 dot_S32x128_S128x16384_S32x16384_1_0_0_1_n_n 128 rfl rfl).symm]
  refine Finset.sum_congr rfl fun d _ => ?_
  have hd := ValueIdx.contrEquiv1_symm_val dot_S32x128_S128x16384_S32x16384_1_0_0_1_n_n 128 rfl rfl d
  have el : dot_S32x128_S128x16384_S32x16384_1_0_0_1_n_n.lhsIdx (ix2 k n) ((ValueIdx.contrEquiv1 dot_S32x128_S128x16384_S32x16384_1_0_0_1_n_n 128 rfl rfl).symm d) = ix2 k d := funext fun a => Fin.ext (by
    match a with
    | ⟨0, _⟩ => exact sd_lhs_0 _ _
    | ⟨1, _⟩ => exact (sd_lhs_1 _ _).trans hd)
  have er : dot_S32x128_S128x16384_S32x16384_1_0_0_1_n_n.rhsIdx (ix2 k n) ((ValueIdx.contrEquiv1 dot_S32x128_S128x16384_S32x16384_1_0_0_1_n_n 128 rfl rfl).symm d) = ix2 d n := funext fun a => Fin.ext (by
    match a with
    | ⟨0, _⟩ => exact (sd_rhs_0 _ _).trans hd
    | ⟨1, _⟩ => exact sd_rhs_1 _ _)
  rw [el, er, pay3_apply]
  show (broadcastTo S32x128 (negScale x2) broadcasts_S32x1_S32x128 (ix2 k d) * x1 (ix2 k d)) * _ = _
  rw [broadcastTo_a1_ab_apply, negScale_apply]

/-! ## The logits -/

/-- The logits at (k, n) are the distributed spelling of the specification's logits. -/
theorem logits_apply (k : Fin 32) (n : Fin 16384) :
    logits x0 x1 x2 (ix2 k n) = logitK (xb x0) (cwb x1) (scb x2) k n := by
  unfold logits
  show (broadcastTo S32x16384 (negScale x2) broadcasts_S32x1_S32x16384 (ix2 k n)
          * broadcastTo S32x16384 (sqRow x0) broadcasts_S1x16384_S32x16384 (ix2 k n)
        - two * scaledDot x0 x1 x2 (ix2 k n))
      + broadcastTo S32x16384 (mulf (negScale x2) (cwSqCol x1)) broadcasts_S32x1_S32x16384 (ix2 k n) = _
  rw [broadcastTo_a1_ab_apply, broadcastTo_1b_ab_apply, broadcastTo_a1_ab_apply]
  show (negScale x2 (ix2 k (0 : Fin 1)) * sqRow x0 (ix2 (0 : Fin 1) n) - two * scaledDot x0 x1 x2 (ix2 k n))
      + negScale x2 (ix2 k (0 : Fin 1)) * cwSqCol x1 (ix2 k (0 : Fin 1)) = _
  rw [negScale_apply, sqRow_apply, cwSqCol_apply, scaledDot_apply]
  rfl

/-! ## The softmax over the codewords -/

section Soft
variable (L : FVec Ideal S32x16384 .f32)

/-- The row of maxima at position n is the fold of max over the 32 codewords. -/
theorem maxRow_apply (n : Fin 16384) :
    maxRow L (ix2 (0 : Fin 1) n) = colMax (fun (k : Fin 32) (n : Fin 16384) => L (ix2 k n)) n := by
  unfold maxRow
  rw [shapeCast_a_1a_apply]
  refine (Ideal.multiReduction_maximumf_single _ _ reduces_S32x16384_S16384 _ _ (ix1 n)).trans ?_
  have e : (L ∘ reduces_S32x16384_S16384.lift (ix1 n)) = fun k : Fin 32 => L (ix2 k n) :=
    funext fun k => congrArg L (funext fun a => Fin.ext (by match a with | ⟨0, _⟩ => rfl | ⟨1, _⟩ => rfl))
  rw [e]
  rfl

/-- The shifted exponential at (k, n). -/
theorem expos_apply (k : Fin 32) (n : Fin 16384) :
    expos L (ix2 k n) = expo (fun (k : Fin 32) (n : Fin 16384) => L (ix2 k n)) k n := by
  unfold expos
  show Ideal.exp (L (ix2 k n) - broadcastTo S32x16384 (maxRow L) broadcasts_S1x16384_S32x16384 (ix2 k n)) = _
  rw [broadcastTo_1b_ab_apply, maxRow_apply]
  rfl

/-- The softmax denominator at position n is the sum of the shifted exponentials over the codewords. -/
theorem denRow_apply (n : Fin 16384) :
    denRow L (ix2 (0 : Fin 1) n) = ∑ k' : Fin 32, expo (fun (k : Fin 32) (n : Fin 16384) => L (ix2 k n)) k' n := by
  unfold denRow
  rw [shapeCast_a_1a_apply]
  refine (Ideal.multiReduction_add_single _ _ reduces_S32x16384_S16384 _ _ (ix1 n)).trans ?_
  show ∑ k' : Fin 32, _ = ∑ k' : Fin 32, _
  refine Finset.sum_congr rfl fun k' _ => ?_
  have e : reduces_S32x16384_S16384.lift (ix1 n) k' = ix2 k' n :=
    funext fun a => Fin.ext (by match a with | ⟨0, _⟩ => rfl | ⟨1, _⟩ => rfl)
  rw [e, expos_apply]

/-- The assignment weight at (k, n) is the product spelling of the softmax weight. -/
theorem weights_apply (k : Fin 32) (n : Fin 16384) :
    weights L (ix2 k n) = weightK (fun (k : Fin 32) (n : Fin 16384) => L (ix2 k n)) k n := by
  unfold weights
  show expos L (ix2 k n)
      * broadcastTo S32x16384 (divf (broadcast S1x16384 (Scalar.ofBits .f32 0x3F800000#32)) (denRow L))
          broadcasts_S1x16384_S32x16384 (ix2 k n) = _
  rw [broadcastTo_1b_ab_apply]
  rw [divf_apply, broadcast_apply, expos_apply, denRow_apply]
  rfl

end Soft

/-! ## The aggregation: weights summed over positions, the second matrix product, the stored block -/

section Aggregate
variable (A : FVec Ideal S32x16384 .f32)

/-- The column of summed weights at k is the sum over the positions. -/
theorem sumW_apply (k : Fin 32) : sumW A (ix2 k (0 : Fin 1)) = ∑ n : Fin 16384, A (ix2 k n) := by
  unfold sumW
  rw [shapeCast_a_a1_apply]
  refine (Ideal.multiReduction_add_single _ _ reduces_S32x16384_S32 _ _ (ix1 k)).trans ?_
  show ∑ n : Fin 16384, _ = ∑ n : Fin 16384, _
  refine Finset.sum_congr rfl fun n _ => ?_
  have e : reduces_S32x16384_S32.lift (ix1 k) n = ix2 k n :=
    funext fun a => Fin.ext (by match a with | ⟨0, _⟩ => rfl | ⟨1, _⟩ => rfl)
  rw [e]

theorem ag_lhs_0 (j : S32x128.Idx) (q : dot_S32x16384_S128x16384_S32x128_1_1_0_0_n_n.contr.Idx) :
    (dot_S32x16384_S128x16384_S32x128_1_1_0_0_n_n.lhsIdx j q 0).val = (j 0).val := by
  unfold DotDims.lhsIdx
  rw [dif_neg (show ¬(0 : Fin S32x16384.rank) ∈ dot_S32x16384_S128x16384_S32x128_1_1_0_0_n_n.lhsBatch by decide), dif_pos (show (0 : Fin S32x16384.rank) ∈ dot_S32x16384_S128x16384_S32x128_1_1_0_0_n_n.lhsNonContracting by decide)]
  rfl
theorem ag_lhs_1 (j : S32x128.Idx) (q : dot_S32x16384_S128x16384_S32x128_1_1_0_0_n_n.contr.Idx) :
    (dot_S32x16384_S128x16384_S32x128_1_1_0_0_n_n.lhsIdx j q 1).val = (q ⟨0, by decide⟩).val :=
  dot_S32x16384_S128x16384_S32x128_1_1_0_0_n_n.lhsIdx_val_of_single rfl j q
theorem ag_rhs_0 (j : S32x128.Idx) (q : dot_S32x16384_S128x16384_S32x128_1_1_0_0_n_n.contr.Idx) :
    (dot_S32x16384_S128x16384_S32x128_1_1_0_0_n_n.rhsIdx j q 0).val = (j 1).val := by
  unfold DotDims.rhsIdx
  rw [dif_neg (show ¬(0 : Fin S128x16384.rank) ∈ dot_S32x16384_S128x16384_S32x128_1_1_0_0_n_n.rhsBatch by decide), dif_pos (show (0 : Fin S128x16384.rank) ∈ dot_S32x16384_S128x16384_S32x128_1_1_0_0_n_n.rhsNonContracting by decide)]
  rfl
theorem ag_rhs_1 (j : S32x128.Idx) (q : dot_S32x16384_S128x16384_S32x128_1_1_0_0_n_n.contr.Idx) :
    (dot_S32x16384_S128x16384_S32x128_1_1_0_0_n_n.rhsIdx j q 1).val = (q ⟨0, by decide⟩).val :=
  dot_S32x16384_S128x16384_S32x128_1_1_0_0_n_n.rhsIdx_val_of_single rfl j q

/-- The second matrix product at (k, d): the sum over the positions of the weight times the feature. -/
theorem aggr_apply (k : Fin 32) (d : Fin 128) :
    aggr x0 A (ix2 k d) = ∑ n : Fin 16384, A (ix2 k n) * x0 (ix3 (0 : Fin 1) d n) := by
  unfold aggr
  simp only [matmul]
  rw [Ideal.matmul_constant_zero_apply, ← Equiv.sum_comp (ValueIdx.contrEquiv1 dot_S32x16384_S128x16384_S32x128_1_1_0_0_n_n 16384 rfl rfl).symm]
  refine Finset.sum_congr rfl fun n _ => ?_
  have hn := ValueIdx.contrEquiv1_symm_val dot_S32x16384_S128x16384_S32x128_1_1_0_0_n_n 16384 rfl rfl n
  have el : dot_S32x16384_S128x16384_S32x128_1_1_0_0_n_n.lhsIdx (ix2 k d) ((ValueIdx.contrEquiv1 dot_S32x16384_S128x16384_S32x128_1_1_0_0_n_n 16384 rfl rfl).symm n) = ix2 k n := funext fun a => Fin.ext (by
    match a with
    | ⟨0, _⟩ => exact ag_lhs_0 _ _
    | ⟨1, _⟩ => exact (ag_lhs_1 _ _).trans hn)
  have er : dot_S32x16384_S128x16384_S32x128_1_1_0_0_n_n.rhsIdx (ix2 k d) ((ValueIdx.contrEquiv1 dot_S32x16384_S128x16384_S32x128_1_1_0_0_n_n 16384 rfl rfl).symm n) = ix2 d n := funext fun a => Fin.ext (by
    match a with
    | ⟨0, _⟩ => exact ag_rhs_0 _ _
    | ⟨1, _⟩ => exact (ag_rhs_1 _ _).trans hn)
  rw [el, er, pay3_apply]
  rfl

/-- The stored block at (u, k, d) is the aggregated residual of the specification. -/
theorem stored_apply (u : Fin 1) (k : Fin 32) (d : Fin 128) :
    stored x0 x1 A (ix3 u k d)
      = enc (xb x0) (cwb x1) (fun (k : Fin 32) (n : Fin 16384) => A (ix2 k n)) k d := by
  unfold stored
  rw [shapeCast_ab_1ab_apply]
  show aggr x0 A (ix2 k d) - broadcastTo S32x128 (sumW A) broadcasts_S32x1_S32x128 (ix2 k d) * x1 (ix2 k d) = _
  rw [broadcastTo_a1_ab_apply, aggr_apply, sumW_apply]
  rfl

end Aggregate

/-- The block one grid point stores, at (u, k, d): the aggregated residuals of the point's feature vectors
    against the codewords, with the softmax weights of the distributed logits. -/
theorem block_apply (u : Fin 1) (k : Fin 32) (d : Fin 128) :
    k0_pay1 x1 (k0_pay5 x0 x1 x2) (k0_pay6 x0 x1 x2) (ix3 u k d)
      = enc (xb x0) (cwb x1) (weightK (logitK (xb x0) (cwb x1) (scb x2))) k d := by
  rw [pay1_eq, stored_apply]
  have hl : (fun (k : Fin 32) (n : Fin 16384) => logits x0 x1 x2 (ix2 k n)) = logitK (xb x0) (cwb x1) (scb x2) :=
    funext fun k => funext fun n => logits_apply x0 x1 x2 k n
  have hw : (fun (k : Fin 32) (n : Fin 16384) => weights (logits x0 x1 x2) (ix2 k n))
      = weightK (logitK (xb x0) (cwb x1) (scb x2)) := by
    funext k n
    rw [weights_apply, hl]
  rw [hw]

end Cert.KernelIdeal.Payload

end
-- ==== Proof.KernelValue.lean ====
/-
  The kernel program's run, with its result array named as the specification.

  The program reshapes the input [32,128,128,128] to [32,128,16384] and the scales [32] to a column [32,1], runs
  one pipelined region over 32 grid points, and reshapes the region's output [32,32,128] to the result [32,4096].
  Grid point t reads block t of the reshaped input (batch entry t: all 128 features at all 16384 positions), the
  whole codeword array and the whole scale column, and stores block t of the output: the 32 x 128 aggregated
  residuals of batch entry t. So entry (b, k, d) of the region's output depends on batch entry b of the input
  only, and is the specification's distributed spelling there; the 32 blocks tile the output, one per batch entry.
-/
import proofs.«141829_j63986422776020_2_alg».proof.Proof.PayloadIdx
import proofs.«141829_j63986422776020_2_alg».proof.Proof.Gen.KernelIdeal.Frame
import Idealize.ShloMosaic.Lib.Pipeline.Value
import Idealize.ShloMosaic.Lib.Tactic

noncomputable section

namespace Cert.KernelIdeal.KValue

open Cert.KernelIdeal Cert.KernelIdeal.Gen Idealize.ShloMosaic Idealize.ShloMosaic.TcCoe Idealize.ShloMosaic.ValueIdx
open Idealize.SL.Sem Cert.Encoding Cert.KernelIdeal.Payload
open Idealize.ShloMosaic.Pipeline (Dat)

variable (m : (ℓ : Loc nD τ sig) → Buf (Elt Ideal) ℓ) (ρ : Dev nD → PrngReg)

/-! ## The host lines before the region -/

/-- The region finds the input reshaped to [32, 128, 16384]. -/
theorem V_main_v0 (c : Dev nD) :
    (V m c main_v0 : S32x128x16384.Idx → EReal)
      = shapeCast S32x128x16384 (m ((c.tc : Thread nD τ).loc main_arg0)) shapeCasts_S32x128x128x128_S32x128x16384 := by
  show StableHlo.after hostOps0 (fun b => m (c, b)) (Proc.devRef .tc main_v0) = _
  after_results
  rfl

/-- The region finds the scales reshaped to the column [32, 1]. -/
theorem V_main_v1 (c : Dev nD) :
    (V m c main_v1 : S32x1.Idx → EReal)
      = shapeCast S32x1 (m ((c.tc : Thread nD τ).loc main_arg2)) shapeCasts_S32_S32x1 := by
  show StableHlo.after hostOps0 (fun b => m (c, b)) (Proc.devRef .tc main_v1) = _
  after_results
  rfl

/-! ## What a grid point stores -/

theorem hz3 : (![0, 0, 0] : Fin 3 → Nat) = fun _ => 0 := funext fun a => by fin_cases a <;> rfl
theorem hz2 : (![0, 0] : Fin 2 → Nat) = fun _ => 0 := funext fun a => by fin_cases a <;> rfl

/-- The region's output array [32, 32, 128]: the specification's distributed spelling of the input reshaped to
    [32, 128, 16384], the codewords and the scales. -/
abbrev G3 (c : Dev nD) : S32x32x128.Idx → EReal :=
  resultK (shapeCast S32x128x16384 (m ((c.tc : Thread nD τ).loc main_arg0)) shapeCasts_S32x128x128x128_S32x128x16384)
    (m ((c.tc : Thread nD τ).loc main_arg1)) (m ((c.tc : Thread nD τ).loc main_arg2))

/-- One stored block against the specification: when the point's input block is batch entry `b` of the reshaped
    input, its codeword block the codewords and its scale block the scales as a column, the stored block at
    `(0, k, d)` is the specification at `(b, k, d)`. -/
theorem block_eq (x0 : Vec Ideal S1x128x16384 .f32) (x1 : Vec Ideal S32x128 .f32) (x2 : Vec Ideal S32x1 .f32)
    (xr : S32x128x16384.Idx → EReal) (cw : S32x128.Idx → EReal) (s : S32.Idx → EReal) (b : Fin 32)
    (h0 : ∀ (d : Fin 128) (n : Fin 16384), x0 (ix3 (0 : Fin 1) d n) = xr (ix3 b d n))
    (h1 : ∀ (k : Fin 32) (d : Fin 128), x1 (ix2 k d) = cw (ix2 k d))
    (h2 : ∀ k : Fin 32, x2 (ix2 k (0 : Fin 1)) = s (ix1 k))
    (y : S1x32x128.Idx) (i : S32x32x128.Idx) (hi0 : (i 0).val = b.val) (hi1 : (i 1).val = (y 1).val) (hi2 : (i 2).val = (y 2).val) :
    k0_pay1 x1 (k0_pay5 x0 x1 x2) (k0_pay6 x0 x1 x2) y = resultK xr cw s i := by
  obtain ⟨u, k, d, rfl⟩ : ∃ (u : Fin 1) (k : Fin 32) (d : Fin 128), y = ix3 u k d := ⟨y 0, y 1, y 2, eq_ix3 y⟩
  rw [block_apply]
  have e0 : xb x0 = slab xr b := funext fun d => funext fun n => h0 d n
  have e1 : cwb x1 = cwOf cw := funext fun k => funext fun d => h1 k d
  have e2 : scb x2 = scOf s := funext fun k => h2 k
  have i0 : i 0 = b := Fin.ext hi0
  have i1 : i 1 = k := Fin.ext hi1
  have i2 : i 2 = d := Fin.ext hi2
  unfold resultK
  rw [e0, e1, e2, i0, i1, i2]

/-- The printed index maps, decided over the 32 grid points: the input's and the output's windows move along the
    batch axis with the point, the codewords' and the scales' windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The batch entry grid point `t` works on. -/
abbrev entryOf (t : Fin cfg0.N) : Fin 32 := Fin.cast N_0 t

/-- The input block at point `t` is batch entry `t` of the reshaped input. -/
theorem read0 (c : Dev nD) (t : Fin cfg0.N) (d : Fin 128) (n : Fin 16384) :
    (iblk m c 0 t : Vec Ideal S1x128x16384 .f32) (ix3 (0 : Fin 1) d n)
      = shapeCast S32x128x16384 (m ((c.tc : Thread nD τ).loc main_arg0)) shapeCasts_S32x128x128x128_S32x128x16384 (ix3 (entryOf t) d n) := by
  show V m c main_v0 (((cfg0.win 0).blk t).view.emb (ix3 (0 : Fin 1) d n)) = _
  rw [V_main_v0]
  refine congrArg _ (funext fun a => Fin.ext ?_)
  obtain ⟨e0, e1, e2, -⟩ := idx_facts t
  match a with
  | ⟨0, _⟩ => show win0_0.index t (0 : Fin 3) * 1 + 1 * (0 : Fin 1).val = t.val; rw [e0]; simp
  | ⟨1, _⟩ => show win0_0.index t (1 : Fin 3) * 128 + 1 * d.val = d.val; rw [e1]; omega
  | ⟨2, _⟩ => show win0_0.index t (2 : Fin 3) * 16384 + 1 * n.val = n.val; rw [e2]; omega

/-- The codeword block at every point is the whole codeword array. -/
theorem read1 (c : Dev nD) (t : Fin cfg0.N) (k : Fin 32) (d : Fin 128) :
    (iblk m c 1 t : Vec Ideal S32x128 .f32) (ix2 k d) = (m ((c.tc : Thread nD τ).loc main_arg1) : S32x128.Idx → EReal) (ix2 k d) := by
  show V m c main_arg1 (((cfg0.win 1).blk t).view.emb (ix2 k d)) = _
  rw [V_main_arg1]
  refine congrArg _ (funext fun a => Fin.ext ?_)
  obtain ⟨-, -, -, e0, e1, -⟩ := idx_facts t
  match a with
  | ⟨0, _⟩ => show win0_1.index t (0 : Fin 2) * 32 + 1 * k.val = k.val; rw [e0]; omega
  | ⟨1, _⟩ => show win0_1.index t (1 : Fin 2) * 128 + 1 * d.val = d.val; rw [e1]; omega

/-- The scale block at every point is the whole scale column. -/
theorem read2 (c : Dev nD) (t : Fin cfg0.N) (k : Fin 32) :
    (iblk m c 2 t : Vec Ideal S32x1 .f32) (ix2 k (0 : Fin 1)) = (m ((c.tc : Thread nD τ).loc main_arg2) : S32.Idx → EReal) (ix1 k) := by
  show V m c main_v1 (((cfg0.win 2).blk t).view.emb (ix2 k (0 : Fin 1))) = _
  rw [V_main_v1, ← shapeCast_a_a1_apply (m ((c.tc : Thread nD τ).loc main_arg2)) shapeCasts_S32_S32x1 k (0 : Fin 1)]
  refine congrArg _ (funext fun a => Fin.ext ?_)
  obtain ⟨-, -, -, -, -, e0, e1, -⟩ := idx_facts t
  match a with
  | ⟨0, _⟩ => show win0_2.index t (0 : Fin 2) * 32 + 1 * k.val = k.val; rw [e0]; omega
  | ⟨1, _⟩ => show win0_2.index t (1 : Fin 2) * 1 + 1 * (0 : Fin 1).val = (0 : Fin 1).val; rw [e1]; omega

/-- WHAT POINT `t` WRITES BACK is block `t` of the specification's array. -/
theorem flushed_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  unfold out0_3
  rw [View.canon_unit_zero hz3]
  simp only [View.ld_unit_zero (S := S1x128x16384) hz3, View.ld_unit_zero (S := S32x128) hz2, View.ld_unit_zero (S := S32x1) hz2]
  funext y
  show k0_pay1 (iblk m c 1 t) (k0_pay5 (iblk m c 0 t) (iblk m c 1 t) (iblk m c 2 t)) (k0_pay6 (iblk m c 0 t) (iblk m c 1 t) (iblk m c 2 t)) y
      = G3 m c (((cfg0.win 3).blk t).view.emb y)
  obtain ⟨-, -, -, -, -, -, -, e0, e1, e2⟩ := idx_facts t
  have hy0 : (y 0).val < 1 := (y 0).isLt
  refine block_eq _ _ _ _ _ _ (entryOf t) (read0 m c t) (read1 m c t) (read2 m c t) y _ ?_ ?_ ?_
  · show win0_3.index t (0 : Fin 3) * 1 + 1 * (y 0).val = t.val; rw [e0]; omega
  · show win0_3.index t (1 : Fin 3) * 32 + 1 * (y 1).val = (y 1).val; rw [e1]; omega
  · show win0_3.index t (2 : Fin 3) * 128 + 1 * (y 2).val = (y 2).val; rw [e2]; omega

/-! ## From the blocks to the array -/

/-- An index of the output array is in point `t`'s block iff each coordinate is in the block's range on its axis. -/
theorem mem_blk (t : Fin cfg0.N) (i : S32x32x128.Idx) :
    i ∈ ((cfg0.win 3).blk t).view.set ↔ ∀ a : Fin 3, win0_3.index t a * S1x32x128.size a ≤ (i a).val ∧ (i a).val < win0_3.index t a * S1x32x128.size a + S1x32x128.size a := by
  show i ∈ ((View.whole main_v2).slice (win0_3.rect t)).set ↔ _
  rw [View.set_slice_whole, Rect.mem_set_unit]
  exact Iff.rfl

/-- The 32 blocks tile the output: entry `(b, k, d)` is in the block of point `b`, and every point writes back. -/
theorem cover (i : S32x32x128.Idx) : ∃ t : Fin cfg0.N, (cfg0.win 3).flush t = true ∧ i ∈ ((cfg0.win 3).blk t).view.set := by
  have h0 : (i 0).val < 32 := (i 0).isLt
  have h1 : (i 1).val < 32 := (i 1).isLt
  have h2 : (i 2).val < 128 := (i 2).isLt
  have ev : (Fin.cast N_0.symm (i 0) : Fin cfg0.N).val = (i 0).val := rfl
  refine ⟨Fin.cast N_0.symm (i 0), flush0_3 _, ?_⟩
  rw [mem_blk]
  obtain ⟨-, -, -, -, -, -, -, e0, e1, e2⟩ := idx_facts (Fin.cast N_0.symm (i 0))
  intro a
  match a with
  | ⟨0, _⟩ => show win0_3.index _ (0 : Fin 3) * 1 ≤ (i 0).val ∧ (i 0).val < win0_3.index _ (0 : Fin 3) * 1 + 1; rw [e0, ev]; omega
  | ⟨1, _⟩ => show win0_3.index _ (1 : Fin 3) * 32 ≤ (i 1).val ∧ (i 1).val < win0_3.index _ (1 : Fin 3) * 32 + 32; rw [e1]; omega
  | ⟨2, _⟩ => show win0_3.index _ (2 : Fin 3) * 128 ≤ (i 2).val ∧ (i 2).val < win0_3.index _ (2 : Fin 3) * 128 + 128; rw [e2]; omega

/-- THE REGION'S OUTPUT ARRAY after the run is the specification's array. -/
theorem final3 (c : Dev nD) : (dats m 0 c).arrAt 3 cfg0.N = G3 m c :=
  (dats m 0 c).arrAt_eq_of_cover 3 (G3 m c) (fun t _ => flushed_eq m c t) cover

/-! ## The host line after the region -/

/-- The result is the region's output array reshaped to [32, 4096]. -/
theorem tail_main_v3 (c : Dev nD) :
    (Pipeline.afterTail₀ cfgs (dats m) 0 (V0 m) [hostOps1] c main_v3 : S32x4096.Idx → EReal)
      = shapeCast S32x4096 ((dats m 0 c).arrAt 3 cfg0.N) shapeCasts_S32x32x128_S32x4096 := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2)
      = (dats m 0 c).arrAt 3 cfg0.N from Pipeline.withArrays_arr spec0 launch0.win.arr_inj c (V0 m c) (fun w => (dats m 0 c).arrAt w cfg0.N) 3]
  rfl

/-! ## The run -/

/-- THE KERNEL PROGRAM'S RUN: every weakly fair execution terminates with the result array at the specification's
    array reshaped to [32, 4096] — the input read as [32, 128, 16384] — and the three argument arrays unchanged. -/
theorem run : θ_run (defs (F := Ideal)) (onTc (τ := τ) (main (F := Ideal))) ⟨m, fun _ => 0, ρ⟩ (fun r => ∀ c : Dev nD,
      r.2.mem ((c.tc : Thread nD τ).loc main_v3)
        = shapeCast S32x4096 (resultK (shapeCast S32x128x16384 (m ((c.tc : Thread nD τ).loc main_arg0)) shapeCasts_S32x128x128x128_S32x128x16384)
              (m ((c.tc : Thread nD τ).loc main_arg1)) (m ((c.tc : Thread nD τ).loc main_arg2))) shapeCasts_S32x32x128_S32x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v3 (Pipeline.mem_restRefs_of main_v3 (by decide) (by decide))).trans
        ((tail_main_v3 m c).trans (congrArg (fun A => shapeCast S32x4096 A shapeCasts_S32x32x128_S32x4096) (final3 m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.lean ====
/-
  The certificate of the encoding kernel against its reference: the three frames, the (empty) idealization
  ledger, and the algebraic claim.

  The kernel computes, one batch entry per grid point, the residual encoding of the entry's 16384 feature
  vectors (of dimension 128) against 32 codewords: softmax weights over the codewords of the scaled squared
  distances, then the weighted sums of the residuals. It multiplies the negated scale into each term of the
  distance and into the codewords before the inner product, and divides by the softmax denominator through a
  reciprocal; the reference multiplies the scale into the whole distance and divides. On extended reals these
  agree where every entry of the arguments is a real number, which is the precondition: distributivity and the
  product with a reciprocal hold on the reals, and the softmax denominator is a positive real.

  Spec.lean states the result as one function of the arguments in both spellings; Algebra.lean joins them on
  real arguments; Finite.lean reads the precondition; RefSpec.lean reads the reference's run; Payload.lean and
  PayloadIdx.lean read the kernel body's arithmetic at an index; KernelValue.lean reads the kernel's run: the
  blocks the grid points write tile the [32, 32, 128] array, and the final reshape is shared by both programs.
-/
import proofs.«141829_j63986422776020_2_alg».proof.Defs
import proofs.«141829_j63986422776020_2_alg».proof.Proof.Gen.Kernel
import proofs.«141829_j63986422776020_2_alg».proof.Proof.Gen.Kernel.Skeleton
import proofs.«141829_j63986422776020_2_alg».proof.Proof.Gen.Kernel.Launch
import proofs.«141829_j63986422776020_2_alg».proof.Proof.Gen.Kernel.Points
import proofs.«141829_j63986422776020_2_alg».proof.Proof.Gen.Kernel.Frame
import proofs.«141829_j63986422776020_2_alg».proof.Proof.Gen.KernelIdeal
import proofs.«141829_j63986422776020_2_alg».proof.Proof.Gen.KernelIdeal.Skeleton
import proofs.«141829_j63986422776020_2_alg».proof.Proof.Gen.KernelIdeal.Launch
import proofs.«141829_j63986422776020_2_alg».proof.Proof.Gen.KernelIdeal.Points
import proofs.«141829_j63986422776020_2_alg».proof.Proof.Gen.KernelIdeal.Frame
import proofs.«141829_j63986422776020_2_alg».proof.Proof.Gen.ReferenceIdeal
import proofs.«141829_j63986422776020_2_alg».proof.Proof.Gen.ReferenceIdeal.Run
import proofs.«141829_j63986422776020_2_alg».proof.Proof.Gen.ReferenceIdeal.Read
import proofs.«141829_j63986422776020_2_alg».proof.Proof.Gen.Pre_finite_inputs
import proofs.«141829_j63986422776020_2_alg».proof.Proof.Spec
import proofs.«141829_j63986422776020_2_alg».proof.Proof.Algebra
import proofs.«141829_j63986422776020_2_alg».proof.Proof.Finite
import proofs.«141829_j63986422776020_2_alg».proof.Proof.RefSpec
import proofs.«141829_j63986422776020_2_alg».proof.Proof.KernelValue
import Idealize.ShloMosaic.Adequacy
import Idealize.ShloMosaic.Init

noncomputable section

/-! ## The five claims -/

namespace Cert.Proof.Claims

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The first reshape of a real-valued array is real-valued: each of its entries is an entry of the array. -/
theorem reshaped_real (a0 : (⟨Cert.ReferenceIdeal.S32x128x128x128, .f32⟩ : BufTy).Contents (Elt Ideal))
    (h : ∀ i, ∃ r : ℝ, a0 i = (r : EReal)) (i : Cert.ReferenceIdeal.S32x128x16384.Idx) :
    ∃ r : ℝ, Cert.ReferenceIdeal.Read.val_main_v0 (F := Ideal) a0 i = (r : EReal) := by
  rw [Cert.ReferenceIdeal.Read.val_main_v0_apply]
  exact h _

/-- Both programs end with the final reshape of one [32,32,128] array: the kernel's is the distributed spelling of the
    encoding, the reference's the factored one, and under the precondition every entry of the arguments is a real
    number, where the two spellings agree. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2]
  unfold Cert.ReferenceIdeal.Read.val_main_v38
  rw [Cert.ReferenceIdeal.RefSpec.ref_result]
  obtain ⟨h0, h1, h2⟩ := Cert.Pre_finite_inputs.Finite.real_of_pre _ _ _ (hpre c)
  rw [← Cert.Encoding.resultK_eq_result _ _ _ (reshaped_real _ h0) h1 h2]
  rfl

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.Claims.frame_ri, trivial, Cert.Proof.Claims.algebraic⟩

end Cert.Proof

end
